-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S256x4096 : Shape := ⟨2, ![256, 4096]⟩
abbrev S1x4096 : Shape := ⟨2, ![1, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096, .f32⟩
  | .local _ .vmem, ⟨3, _⟩ => ⟨S4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)

variable [Facts₀]

class Facts : Prop extends Facts₀ where

variable [Facts]
-- ==== Proof.CappedSpec.lean ====
/-
  The function both programs compute, stated once for any float instance.

  For an array x of 8192 rows by 4096 columns and two vectors w, b of 4096 entries, the element in row r and column q
  of the result is the capped rectifier of the affine value

      y = x(r, q) · w(q) + b(q),        result(r, q) = y  if 0 < y and y ≤ 1,   and 0 otherwise.

  The two vectors are read at the element's COLUMN only: the row plays no part in them. Nothing here is particular to
  one float instance: the value is four scalar operations (a product, a sum, two comparisons against the words of 0.0
  and 1.0) and a choice, so the same definition reads at words and at extended reals, and no law of arithmetic is
  needed to compare two programs that both evaluate it.
-/
import Idealize.ShloMosaic.PureOps.Vector

noncomputable section

namespace Cert.CappedRelu

open Idealize.ShloMosaic

variable {F : FTy → Type} [FloatOps F]

/-- The shape of the array x and of the result: 8192 rows, 4096 columns. -/
abbrev Grid : Shape := ⟨2, ![8192, 4096]⟩
/-- The shape of the two vectors: one entry per column. -/
abbrev Row : Shape := ⟨1, ![4096]⟩

/-- The column of an element of the array, as an index of the vectors. -/
abbrev column (i : Grid.Idx) : Row.Idx := fun a => match a with
  | ⟨0, _⟩ => ⟨(i 1).val, (i 1).isLt⟩

/-- The capped rectifier of three scalars: with y = x · w + b, it is y when 0 < y ≤ 1 and 0 otherwise (the comparisons are
    the ordered ones, against the words of 0.0 and of 1.0). -/
def capped (x w b : F .f32) : F .f32 :=
  Scalar.select
    (IntOp.andi (FloatOps.cmpf .ogt (FloatOps.addf (FloatOps.mulf x w) b) (Scalar.ofBits .f32 0x00000000#32))
                (FloatOps.cmpf .ole (FloatOps.addf (FloatOps.mulf x w) b) (Scalar.ofBits .f32 0x3F800000#32)))
    (FloatOps.addf (FloatOps.mulf x w) b)
    (Scalar.ofBits .f32 0x00000000#32)

/-- The whole result: the capped rectifier of each element of x with its column's entries of w and b. -/
def cappedArray (x : Grid.Idx → Elt F .f32) (w b : Row.Idx → Elt F .f32) : Grid.Idx → Elt F .f32 :=
  fun i => capped (x i) (w (column i)) (b (column i))

theorem cappedArray_apply (x : Grid.Idx → Elt F .f32) (w b : Row.Idx → Elt F .f32) (i : Grid.Idx) :
    cappedArray x w b i = capped (x i) (w (column i)) (b (column i)) := rfl

end Cert.CappedRelu

end
-- ==== Proof.CappedReference.lean ====
/-
  The reference computes the capped rectifier.

  The reference forms y = x · w + b over the whole array by first spreading each vector along the rows (a vector
  becomes a one-row array, and that row is repeated 8192 times), then compares y with an array of zeros and an array of
  ones, and chooses between y and zeros. Read at one element, every spreading step only forgets the row: the vector's
  entry that reaches row r, column q is its entry q. What is left at the element is the scalar capped rectifier of x(r, q), w(q),
  b(q), so the reference's result is the specification's array, for any float instance.
-/
import proofs.«139545_j82214263980323_1_alg».proof.Proof.Gen.ReferenceIdeal.Read
import proofs.«139545_j82214263980323_1_alg».proof.Proof.CappedSpec

noncomputable section

namespace Cert.CappedRelu.Reference

open Cert.ReferenceIdeal Cert.ReferenceIdeal.Read Cert.CappedRelu Idealize.ShloMosaic

variable {F : FTy → Type} [FloatOps F]

/-- Spreading w along the rows reads, at an element, the entry of its column: the two index steps of the spreading
    compose to the column. -/
theorem spread_w (i : S8192x4096.Idx) : idx_main_v0 (idx_main_v1 i) = column i :=
  funext fun a => match a with | ⟨0, _⟩ => rfl

/-- The same for b. -/
theorem spread_b (i : S8192x4096.Idx) : idx_main_v3 (idx_main_v4 i) = column i :=
  funext fun a => match a with | ⟨0, _⟩ => rfl

/-- The reference's last stage is the specification's array: element by element, the spread vectors are read at the
    column, the constant arrays at their one word, and the comparisons and the choice are the capped rectifier's. -/
theorem result_eq (x : (⟨S8192x4096, .f32⟩ : BufTy).Contents (Elt F)) (w b : (⟨S4096, .f32⟩ : BufTy).Contents (Elt F)) :
    val_main_v12 (F := F) x w b = cappedArray x w b := by
  funext i
  simp only [val_main_v12_apply, val_main_v10_apply, val_main_v7_apply, val_main_v9_apply, val_main_v5_apply,
    val_main_v2_apply, val_main_v1_apply, val_main_v0_apply, val_main_v4_apply, val_main_v3_apply,
    val_main_v6_apply, val_main_v8_apply, val_main_v11_apply, val_main_cst_apply, val_main_cst_0_apply,
    val_main_cst_1_apply, spread_w, spread_b]
  rfl

end Cert.CappedRelu.Reference

end
-- ==== Proof.CappedKernel.lean ====
/-
  The kernel computes the capped rectifier.

  The kernel walks the array in 32 blocks of 256 whole rows. At block t it holds rows 256·t … 256·t + 255 of x and the
  two vectors whole, computes the capped rectifier of every element of the block (each vector is laid out as one row and that row
  repeated down the block, so an element meets the vector's entry of its own column), and writes the block back to
  the same rows of the result. Three facts make the result the specification's array:
    * inside a block, the value at (r, q) is the capped rectifier of the block's x(r, q) with w(q), b(q)          (block_apply);
    * element (r, q) of block t IS element (256·t + r, q) of the array, and the vectors' only block
      is the vector itself, so what block t writes back is the specification read through block t    (flushed_eq);
    * every row belongs to a block: row r to block r / 256                                            (cover).
  Nothing here depends on the float instance.
-/
import proofs.«139545_j82214263980323_1_alg».proof.Proof.Gen.KernelIdeal.Value
import proofs.«139545_j82214263980323_1_alg».proof.Proof.CappedSpec
import Idealize.ShloMosaic.Lib.Pipeline.Value

noncomputable section

namespace Cert.CappedRelu.Kernel

open Cert.KernelIdeal Cert.KernelIdeal.Gen Cert.KernelIdeal.Value Cert.CappedRelu
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Inside one block -/

theorem origin2 : (![0, 0] : Fin 2 → Nat) = fun _ => 0 := funext fun a => by fin_cases a <;> rfl
theorem origin1 : (![0] : Fin 1 → Nat) = fun _ => 0 := funext fun a => by fin_cases a; rfl

/-- The column of an element of a block, as an index of the vectors. -/
abbrev lane (y : S256x4096.Idx) : S4096.Idx := fun a => match a with
  | ⟨0, _⟩ => ⟨(y 1).val, (y 1).isLt⟩

/-- What the body leaves in the output block, at element y: the capped rectifier of the block's x at y with the vectors' entries
    of y's column. The body's loads take each buffer whole, and its one store covers the block. -/
theorem block_apply (x : Vec F S256x4096 .f32) (w b : Vec F S4096 .f32) (y : S256x4096.Idx) :
    out0_3 x w b y = capped (x y) (w (lane y)) (b (lane y)) := by
  unfold out0_3
  rw [canon3_eq]
  simp only [View.ld_unit_zero (S := S256x4096) origin2, View.ld_unit_zero (S := S4096) origin1]
  have hx : ∀ k : S256x4096.Idx, (fun a => match a with
      | ⟨0, _⟩ => (⟨(k 0).val, (k 0).isLt⟩ : Fin 256) | ⟨1, _⟩ => (⟨(k 1).val, (k 1).isLt⟩ : Fin 4096) : S256x4096.Idx) = k :=
    fun k => funext fun a => match a with | ⟨0, _⟩ => rfl | ⟨1, _⟩ => rfl
  have hw : ix3_1 y = lane y := funext fun a => match a with | ⟨0, _⟩ => rfl
  have hb : ix3_2 y = lane y := funext fun a => match a with | ⟨0, _⟩ => rfl
  show capped (x (ix3_0 y)) (w (ix3_1 y)) (b (ix3_2 y)) = _
  rw [show ix3_0 y = y from hx y, hw, hb]

/-! ## A block is a set of rows of the array -/

/-- The index maps over the 32 points: block t of x and of the result starts at row block t, column block 0;
    the vectors have the one block 0. -/
theorem idx_facts : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is the specification's array read through block t of the result. -/
theorem flushed_eq (c : Dev nD) (t : Fin cfg0.N) :
    (dats m 0 c).flushed 3 t
      = ((cfg0.win 3).blk t).view.read (Elt F) (cappedArray (V m c main_arg0) (V m c main_arg1) (V m c main_arg2)) := by
  rw [flushed3]
  obtain ⟨e0, e1, e2, e3, e4, e5⟩ := idx_facts t
  funext j
  show out0_3 (iblk m c 0 t) (iblk m c 1 t) (iblk m c 2 t) j
    = capped (V m c main_arg0 (((cfg0.win 3).blk t).view.emb j))
        (V m c main_arg1 (column (((cfg0.win 3).blk t).view.emb j)))
        (V m c main_arg2 (column (((cfg0.win 3).blk t).view.emb j)))
  refine (block_apply (iblk m c 0 t) (iblk m c 1 t) (iblk m c 2 t) j).trans ?_
  have hj0 : (j 0).val < 256 := (j 0).isLt
  have hj1 : (j 1).val < 4096 := (j 1).isLt
  have hx : iblk m c 0 t j = V m c main_arg0 (((cfg0.win 3).blk t).view.emb j) := by
    show V m c main_arg0 (((cfg0.win 0).blk t).view.emb j) = _
    refine congrArg (V m c main_arg0) (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  have hw : iblk m c 1 t (lane j) = V m c main_arg1 (column (((cfg0.win 3).blk t).view.emb j)) := by
    show V m c main_arg1 (((cfg0.win 1).blk t).view.emb (lane j)) = _
    refine congrArg (V m c main_arg1) (funext fun a => Fin.ext ?_)
    match a with
    | ⟨0, _⟩ => show win0_1.index t (0 : Fin 1) * 4096 + 1 * (j 1).val = win0_3.index t (1 : Fin 2) * 4096 + 1 * (j 1).val; omega
  have hb : iblk m c 2 t (lane j) = V m c main_arg2 (column (((cfg0.win 3).blk t).view.emb j)) := by
    show V m c main_arg2 (((cfg0.win 2).blk t).view.emb (lane j)) = _
    refine congrArg (V m c main_arg2) (funext fun a => Fin.ext ?_)
    match a with
    | ⟨0, _⟩ => show win0_2.index t (0 : Fin 1) * 4096 + 1 * (j 1).val = win0_3.index t (1 : Fin 2) * 4096 + 1 * (j 1).val; omega
  rw [hx, hw, hb]

/-! ## The blocks fill the array -/

/-- An element of the array is in block t iff each coordinate is in the block's range on its axis. -/
theorem mem_blk (t : Fin cfg0.N) (i : S8192x4096.Idx) :
    i ∈ ((cfg0.win 3).blk t).view.set
      ↔ ∀ a : Fin 2, win0_3.index t a * S256x4096.size a ≤ (i a).val
          ∧ (i a).val < win0_3.index t a * S256x4096.size a + S256x4096.size a := by
  show i ∈ ((View.whole main_v0).slice (win0_3.rect t)).set ↔ _
  rw [View.set_slice_whole, Rect.mem_set_unit]
  exact Iff.rfl

/-- Every element of the array is in some block that is written back: row r is in block r / 256. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, lt_of_lt_of_eq (by omega : (i 0).val / 256 < 32) N_0.symm⟩, rfl⟩
  obtain ⟨e0, e1, e2, e3, e4, e5⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-! ## The array after the run, and the run -/

/-- The result array after the last point is the specification's array of the arguments as launched. -/
theorem final (c : Dev nD) :
    (dats m 0 c).arrAt 3 cfg0.N
      = cappedArray (m ((c : Thread nD τ).loc main_arg0)) (m ((c : Thread nD τ).loc main_arg1)) (m ((c : Thread nD τ).loc main_arg2)) :=
  (dats m 0 c).arrAt_eq_of_cover 3
    (cappedArray (m ((c : Thread nD τ).loc main_arg0)) (m ((c : Thread nD τ).loc main_arg1)) (m ((c : Thread nD τ).loc main_arg2)))
    (fun t _ => flushed_eq m c t) cover

/-- Every weakly fair execution of the kernel terminates with the result at the specification's array of the arguments,
    the arguments unchanged. -/
theorem run : θ_run defs (onTc (τ := τ) (main (F := F))) ⟨m, fun _ => 0, ρ⟩ fun r => ∀ c : Dev nD,
      r.2.mem ((c : Thread nD τ).loc main_v0)
        = cappedArray (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.CappedRelu.Kernel

end
-- ==== Proof.lean ====
/-
  The kernel and its reference compute the same array.

  Both programs take an array x of 8192 rows by 4096 columns and two vectors w, b of 4096 entries, and return, at row r
  and column q, the capped rectifier of y = x(r, q) · w(q) + b(q): y itself when 0 < y ≤ 1, and 0 otherwise
  (Proof/CappedSpec.lean). The reference evaluates this over the whole array after spreading the vectors along the rows
  (Proof/CappedReference.lean); the kernel evaluates it block by block, 32 blocks of 256 whole rows, each block written
  back to its own rows, the blocks together filling the array (Proof/CappedKernel.lean). Both sides apply the very same
  scalar operations with the very same two constants (the words of 0.0 and 1.0) to the very same three numbers, so they
  agree on every input, finite or not, and over the extended reals no law of arithmetic is called on: the precondition
  is not used.

  The idealized kernel is the kernel's own text read over the extended reals (no operation was rewritten), so there
  is nothing to restate for it. Each program runs to the end without a fault and leaves its arguments as they were: for
  the two kernels this is the run of the pipeline of 32 blocks, for the reference the run of its sixteen array
  operations with the result dropped.
-/
import proofs.«139545_j82214263980323_1_alg».proof.Defs
import proofs.«139545_j82214263980323_1_alg».proof.Proof.Gen.Kernel
import proofs.«139545_j82214263980323_1_alg».proof.Proof.Gen.Kernel.Skeleton
import proofs.«139545_j82214263980323_1_alg».proof.Proof.Gen.Kernel.Launch
import proofs.«139545_j82214263980323_1_alg».proof.Proof.Gen.Kernel.Points
import proofs.«139545_j82214263980323_1_alg».proof.Proof.Gen.Kernel.Frame
import proofs.«139545_j82214263980323_1_alg».proof.Proof.Gen.KernelIdeal
import proofs.«139545_j82214263980323_1_alg».proof.Proof.Gen.KernelIdeal.Skeleton
import proofs.«139545_j82214263980323_1_alg».proof.Proof.Gen.KernelIdeal.Launch
import proofs.«139545_j82214263980323_1_alg».proof.Proof.Gen.KernelIdeal.Points
import proofs.«139545_j82214263980323_1_alg».proof.Proof.Gen.KernelIdeal.Frame
import proofs.«139545_j82214263980323_1_alg».proof.Proof.Gen.ReferenceIdeal
import proofs.«139545_j82214263980323_1_alg».proof.Proof.Gen.Pre_finite_inputs
import proofs.«139545_j82214263980323_1_alg».proof.Proof.Gen.KernelIdeal.Value
import proofs.«139545_j82214263980323_1_alg».proof.Proof.Gen.ReferenceIdeal.Run
import proofs.«139545_j82214263980323_1_alg».proof.Proof.Gen.ReferenceIdeal.Read
import proofs.«139545_j82214263980323_1_alg».proof.Proof.CappedSpec
import proofs.«139545_j82214263980323_1_alg».proof.Proof.CappedReference
import proofs.«139545_j82214263980323_1_alg».proof.Proof.CappedKernel
import Idealize.ShloMosaic.Adequacy
import Idealize.ShloMosaic.Init

noncomputable section

namespace Cert.Proof

open Idealize.ShloMosaic Idealize.SL.Sem

/-- The kernel at the level of machine words runs to the end and keeps its arguments. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run with the statement about the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on x, w and b, both programs end with the result at the capped rectifier of x, w, b: the kernel
    by its blocks, the reference by its last stage read element by element. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.CappedRelu.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.CappedRelu.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
